-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S64x128 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S64x128 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S3200000 : Shape := ⟨1, ![3200000]⟩

abbrev nBuf : Space → Nat
  | .hbm => 115
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S850000x1, .f32⟩
  | .hbm, ⟨59, _⟩ => ⟨S128x128, .f32⟩
  | .hbm, ⟨60, _⟩ => ⟨S50000x128, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S128x128, .f32⟩
  | .hbm, ⟨77, _⟩ => ⟨S1x128, .f32⟩
  | .hbm, ⟨78, _⟩ => ⟨S50000x128, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x128, .f32⟩
  | .hbm, ⟨88, _⟩ => ⟨S850000x128, .f32⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S128x64, .f32⟩
  | .hbm, ⟨95, _⟩ => ⟨S1x128, .f32⟩
  | .hbm, ⟨96, _⟩ => ⟨S50000x64, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x64, .f32⟩
  | .hbm, ⟨106, _⟩ => ⟨S850000x64, .f32⟩
  | .hbm, ⟨107, _⟩ => ⟨S850000x64, .f32⟩
  | .hbm, ⟨108, _⟩ => ⟨S_, .f32⟩
  | .hbm, ⟨109, _⟩ => ⟨S50000x64, .f32⟩
  | .hbm, ⟨110, _⟩ => ⟨S850000x1, .i32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S3200000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S50000x64_S3200000 : S50000x64.ShapeCasts S3200000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S850000x64 : Shape := ⟨2, ![850000, 64]⟩
abbrev S1x64 : Shape := ⟨2, ![1, 64]⟩
abbrev S3200000 : Shape := ⟨1, ![3200000]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S64x128, .f32⟩
  | 8 => ⟨S64, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S128x128, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S128x128, .f32⟩
  | 83 => ⟨S50000x128, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x128, .f32⟩
  | 93 => ⟨S850000x1, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S128x64, .f32⟩
  | 107 => ⟨S50000x64, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x1, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000x64, .f32⟩
  | 1 => ⟨S50000x64, .f32⟩
  | 2 => ⟨S3200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call3_cst : Ref sig .tc := ⟨.hbm, 103, rfl⟩
abbrev main_call3_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_14 : Ref sig .tc := ⟨.hbm, 108, rfl⟩
abbrev main_v75 : Ref sig .tc := ⟨.hbm, 109, rfl⟩
abbrev main_v76 : Ref sig .tc := ⟨.hbm, 110, rfl⟩
abbrev main_c_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call4_cst : Ref sig .tc := ⟨.hbm, 127, rfl⟩
abbrev main_call4_v0 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S50000x64_S3200000 : S50000x64.ShapeCasts S3200000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RunResult.lean ====
/-
  The idealized kernel's run with its result kept.
  The program is thirteen segments: host operations, then four pipelined regions each followed by host operations. The
  contents of every buffer at each segment boundary are a fold from the launch memory: a stretch of host operations applies
  its operations' functions, a region leaves its arrays at what its write-backs fold to and every other buffer alone. Every
  weakly fair execution terminates with every unscoped buffer at the last boundary's contents; read at the result buffer and
  at the nine arguments, this is the run stated here.
-/
import proofs.«148177_j86217173500330_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at the last
    boundary's contents and the nine argument arrays as launched. -/
theorem run_result : θ_run defs (onTc (τ := τ) (main (F := F))) ⟨m, fun _ => 0, ρ⟩ (fun r => ∀ c : Dev nD,
      r.2.mem ((c.tc : Thread nD τ).loc main_v82) = W13 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v82 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.RunValue

end
-- ==== Proof.Entry.lean ====
/-
  What region 0 finds: the shared graph quantities and the arguments.
  Before the first pipelined region the program computes, on the host, the source and target node of every message (the
  edges followed by one self loop per node), the normalised edge weight as a column, and the transposed first weight; no
  argument array is written. These are operation for operation the reference's first operations, so the contents of those
  buffers at region 0's entry are the reference's stage functions of the same arguments. The normalised weight is reached
  in steps — the degree of every node, its guarded inverse square root, then the product over each message's two ends —
  one stretch of host operations at a time.
-/
import proofs.«148177_j86217173500330_2_alg».proof.Proof.Gen.KernelIdeal.Frame
import proofs.«148177_j86217173500330_2_alg».proof.Proof.Gen.ReferenceIdeal.Read

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo
open Cert.ReferenceIdeal.Read

/-! ## One stretch at a time, for any contents it starts from -/

section Stretch

variable (Wv : Valuation τ sig (Elt Ideal))

/-- The degree where it is positive, 1 elsewhere (over any three operands: the call's typed references carry their
    contents unchanged). -/
theorem safeDegree (A : (⟨S50000, .i1⟩ : BufTy).Contents (Elt Ideal)) (B : (⟨S50000, .f32⟩ : BufTy).Contents (Elt Ideal)) (C : (⟨S_, .f32⟩ : BufTy).Contents (Elt Ideal))
    (h13 : Wv (Proc.devRef .tc main_v13) = A) (h11 : Wv (Proc.devRef .tc main_v11) = B) (hc : Wv (Proc.devRef .tc main_cst_2) = C) :
    after hostOps0_1 Wv (Proc.devRef .tc main_v14) = select A B (broadcastInDim S50000 ![] bcast_S_S50000 (id C)) := by
  dsimp only [hostOps0_1]
  after_results_simp
  rw [h13, h11, hc]
  rfl

/-- Its inverse square root. -/
theorem invSqrt (x1 : (⟨S2x800000, .i32⟩ : BufTy).Contents (Elt Ideal)) (x2 : (⟨S800000, .f32⟩ : BufTy).Contents (Elt Ideal)) (h14 : Wv (Proc.devRef .tc main_v14) = val_main_v14 (F := Ideal) x1 x2) :
    after hostOps0_2 Wv (Proc.devRef .tc main_v17) = val_main_v17 (F := Ideal) x1 x2 := by
  dsimp only [hostOps0_2]
  after_results_simp
  rw [h14]
  rfl

/-- The inverse square root where the degree is positive, 0 elsewhere (over any three operands). -/
theorem guarded (A : (⟨S50000, .i1⟩ : BufTy).Contents (Elt Ideal)) (B : (⟨S50000, .f32⟩ : BufTy).Contents (Elt Ideal)) (C : (⟨S_, .f32⟩ : BufTy).Contents (Elt Ideal))
    (h16 : Wv (Proc.devRef .tc main_v16) = A) (h17 : Wv (Proc.devRef .tc main_v17) = B) (hc : Wv (Proc.devRef .tc main_cst_4) = C) :
    after hostOps0_3 Wv (Proc.devRef .tc main_v18) = select A B (broadcastInDim S50000 ![] bcast_S_S50000 (id C)) := by
  dsimp only [hostOps0_3]
  after_results_simp
  rw [h16, h17, hc]
  rfl

/-- The normalised weight of every message, as a column: the factor at its source, its weight, the factor at its target. -/
theorem normColumn (x1 : (⟨S2x800000, .i32⟩ : BufTy).Contents (Elt Ideal)) (x2 : (⟨S800000, .f32⟩ : BufTy).Contents (Elt Ideal))
    (h18 : Wv (Proc.devRef .tc main_v18) = val_main_v18 (F := Ideal) x1 x2) (h3 : Wv (Proc.devRef .tc main_v3) = val_main_v3 (F := Ideal) x1)
    (h6 : Wv (Proc.devRef .tc main_v6) = val_main_v6 (F := Ideal) x1) (h8 : Wv (Proc.devRef .tc main_v8) = val_main_v8 (F := Ideal) x2) :
    after hostOps0_4 Wv (Proc.devRef .tc main_v35) = val_main_v44 (F := Ideal) x1 x2 := by
  dsimp only [hostOps0_4]
  after_results_simp
  rw [h18, h3, h6, h8]
  rfl

end Stretch

/-! ## The program's own boundaries -/

variable (m : (ℓ : Loc nD τ sig) → Buf (Elt Ideal) ℓ) (ρ : Dev nD → PrngReg) (c : Dev nD)

/-- After the first stretch: the degree of every node, where it is positive, and the constant 1. -/
theorem degree1 : W1 m ρ c (Proc.devRef .tc main_v11) = val_main_v11 (F := Ideal) (m ((c : Thread nD τ).loc main_arg1)) (m ((c : Thread nD τ).loc main_arg2)) := by
  dsimp only [W1, W0, hostOps0]
  after_results_simp <;> rfl
theorem positive1 : W1 m ρ c (Proc.devRef .tc main_v13) = val_main_v13 (F := Ideal) (m ((c : Thread nD τ).loc main_arg1)) (m ((c : Thread nD τ).loc main_arg2)) := by
  dsimp only [W1, W0, hostOps0]
  after_results_simp <;> rfl
theorem one1 : W1 m ρ c (Proc.devRef .tc main_cst_2) = val_main_cst_2 (F := Ideal) := by
  dsimp only [W1, W0, hostOps0]
  after_results_simp <;> rfl

theorem safeDegree2 : W2 m ρ c (Proc.devRef .tc main_v14) = val_main_v14 (F := Ideal) (m ((c : Thread nD τ).loc main_arg1)) (m ((c : Thread nD τ).loc main_arg2)) :=
  (safeDegree (W1 m ρ c) _ _ _ (positive1 m ρ c) (degree1 m ρ c) (one1 m ρ c)).trans rfl

theorem invSqrt3 : W3 m ρ c (Proc.devRef .tc main_v17) = val_main_v17 (F := Ideal) (m ((c : Thread nD τ).loc main_arg1)) (m ((c : Thread nD τ).loc main_arg2)) :=
  invSqrt (W2 m ρ c) _ _ (safeDegree2 m ρ c)
theorem positive3 : W3 m ρ c (Proc.devRef .tc main_v16) = val_main_v16 (F := Ideal) (m ((c : Thread nD τ).loc main_arg1)) (m ((c : Thread nD τ).loc main_arg2)) := by
  dsimp only [W3, W2, W1, W0, hostOps0, hostOps0_1, hostOps0_2]
  after_results_simp <;> rfl
theorem zero3 : W3 m ρ c (Proc.devRef .tc main_cst_4) = val_main_cst_4 (F := Ideal) := by
  dsimp only [W3, W2, W1, W0, hostOps0, hostOps0_1, hostOps0_2]
  after_results_simp <;> rfl

theorem guarded4 : W4 m ρ c (Proc.devRef .tc main_v18) = val_main_v18 (F := Ideal) (m ((c : Thread nD τ).loc main_arg1)) (m ((c : Thread nD τ).loc main_arg2)) :=
  (guarded (W3 m ρ c) _ _ _ (positive3 m ρ c) (invSqrt3 m ρ c) (zero3 m ρ c)).trans rfl
theorem row4 : W4 m ρ c (Proc.devRef .tc main_v3) = val_main_v3 (F := Ideal) (m ((c : Thread nD τ).loc main_arg1)) := by
  dsimp only [W4, W3, W2, W1, W0, hostOps0, hostOps0_1, hostOps0_2, hostOps0_3]
  after_results_simp <;> rfl
theorem col4 : W4 m ρ c (Proc.devRef .tc main_v6) = val_main_v6 (F := Ideal) (m ((c : Thread nD τ).loc main_arg1)) := by
  dsimp only [W4, W3, W2, W1, W0, hostOps0, hostOps0_1, hostOps0_2, hostOps0_3]
  after_results_simp <;> rfl
theorem weights4 : W4 m ρ c (Proc.devRef .tc main_v8) = val_main_v8 (F := Ideal) (m ((c : Thread nD τ).loc main_arg2)) := by
  dsimp only [W4, W3, W2, W1, W0, hostOps0, hostOps0_1, hostOps0_2, hostOps0_3]
  after_results_simp <;> rfl

/-- The source node of every message. -/
theorem row : W5 m ρ c (Proc.devRef .tc main_v3) = val_main_v3 (F := Ideal) (m ((c : Thread nD τ).loc main_arg1)) := by
  dsimp only [W5, W4, W3, W2, W1, W0, hostOps0, hostOps0_1, hostOps0_2, hostOps0_3, hostOps0_4]
  after_results_simp <;> rfl

/-- The target node of every message. -/
theorem col : W5 m ρ c (Proc.devRef .tc main_v6) = val_main_v6 (F := Ideal) (m ((c : Thread nD τ).loc main_arg1)) := by
  dsimp only [W5, W4, W3, W2, W1, W0, hostOps0, hostOps0_1, hostOps0_2, hostOps0_3, hostOps0_4]
  after_results_simp <;> rfl

/-- The normalised weight of every message, as a column. -/
theorem norm : W5 m ρ c (Proc.devRef .tc main_v35) = val_main_v44 (F := Ideal) (m ((c : Thread nD τ).loc main_arg1)) (m ((c : Thread nD τ).loc main_arg2)) :=
  normColumn (W4 m ρ c) _ _ (guarded4 m ρ c) (row4 m ρ c) (col4 m ρ c) (weights4 m ρ c)

/-- The transposed first weight. -/
theorem weight : W5 m ρ c (Proc.devRef .tc main_v36) = val_main_v35 (F := Ideal) (m ((c : Thread nD τ).loc main_arg3)) := by
  dsimp only [W5, W4, W3, W2, W1, W0, hostOps0, hostOps0_1, hostOps0_2, hostOps0_3, hostOps0_4]
  after_results_simp <;> rfl

/-- The arguments the later segments read are as launched. -/
theorem arg0 : W5 m ρ c (Proc.devRef .tc main_arg0) = (m ((c : Thread nD τ).loc main_arg0)) := by
  dsimp only [W5, W4, W3, W2, W1, W0, hostOps0, hostOps0_1, hostOps0_2, hostOps0_3, hostOps0_4]
  after_results_simp <;> rfl
theorem arg4 : W5 m ρ c (Proc.devRef .tc main_arg4) = (m ((c : Thread nD τ).loc main_arg4)) := by
  dsimp only [W5, W4, W3, W2, W1, W0, hostOps0, hostOps0_1, hostOps0_2, hostOps0_3, hostOps0_4]
  after_results_simp <;> rfl
theorem arg5 : W5 m ρ c (Proc.devRef .tc main_arg5) = (m ((c : Thread nD τ).loc main_arg5)) := by
  dsimp only [W5, W4, W3, W2, W1, W0, hostOps0, hostOps0_1, hostOps0_2, hostOps0_3, hostOps0_4]
  after_results_simp <;> rfl
theorem arg6 : W5 m ρ c (Proc.devRef .tc main_arg6) = (m ((c : Thread nD τ).loc main_arg6)) := by
  dsimp only [W5, W4, W3, W2, W1, W0, hostOps0, hostOps0_1, hostOps0_2, hostOps0_3, hostOps0_4]
  after_results_simp <;> rfl
theorem arg7 : W5 m ρ c (Proc.devRef .tc main_arg7) = (m ((c : Thread nD τ).loc main_arg7)) := by
  dsimp only [W5, W4, W3, W2, W1, W0, hostOps0, hostOps0_1, hostOps0_2, hostOps0_3, hostOps0_4]
  after_results_simp <;> rfl
theorem arg8 : W5 m ρ c (Proc.devRef .tc main_arg8) = (m ((c : Thread nD τ).loc main_arg8)) := by
  dsimp only [W5, W4, W3, W2, W1, W0, hostOps0, hostOps0_1, hostOps0_2, hostOps0_3, hostOps0_4]
  after_results_simp <;> rfl

end Cert.KernelIdeal.Entry

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«148177_j86217173500330_2_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibColSum.lean ====
/-
  Over the library only, at the ideal instance: a sum down the columns of an [a, b] matrix. A multi_reduction <add>
  along axis 0 into [b] reads, at column c, the sum over k < a of the entries (k, c) (the accumulator being the zero
  word); the lifted index over c with k inserted on axis 0 is (k, c).
-/
import Idealize.ShloMosaic.PureOps.Ideal.Laws
import Idealize.ShloMosaic.Lib.ValueIdx
import Idealize.ShloMosaic.Lib.Pipeline.Value

noncomputable section

open scoped BigOperators

namespace Cert.LibColSum

open Idealize.ShloMosaic Idealize.ShloMosaic.ValueIdx

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The sum down a column: at `c`, the sum over the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_col h c k))

/-- A [b] vector shape-cast to a [1, b] row reads, at (0, c), the vector's entry c. -/
theorem row_of_vec {b : ℕ} {α : Type} (v : (⟨1, ![b]⟩ : Shape).Idx → α) (h : (⟨1, ![b]⟩ : Shape).ShapeCasts ⟨2, ![1, b]⟩) (c : Fin b) :
    shapeCast ⟨2, ![1, b]⟩ v h (ix2 (0 : Fin 1) c) = v (ix1 c) :=
  (shapeCast_addUnit_apply ![b] v h (ix2 (0 : Fin 1) c)).trans
    (congrArg v (funext fun d => by match d with | ⟨0, _⟩ => rfl))

end Cert.LibColSum

end
-- ==== Proof.LibReluDense.lean ====
/-
  A bias-and-positive-part stage and the plain matrix product it feeds, on the extended reals, in the two spellings that
  lower from "relu(x + b) @ w".
  For an M×K array x, a bias given as a one-row array b (shape [1, K]) and a K×N weight w:
      dense x w      : (a, c) ↦ Σ_{k<K} x(a,k) · w(k,c)
      biasRelu x b   : (a, k) ↦ max (x(a,k) + b(0,k)) 0
      reluDense x b w = dense (biasRelu x b) w : (a, c) ↦ Σ_{k<K} max (x(a,k) + b(0,k)) 0 · w(k,c) .
  * dense_of_matmul / dense_of_dotGeneral: a matrix unit's product over the plain dimension numbers into a zero accumulator,
    the operands first narrowed to a 16-bit float format (the identity on the extended reals) and the weight shape-cast to
    its own shape, and the host's product over the same dimension numbers, are both dense.
  * biasRelu_of_broadcastTo / biasRelu_of_broadcastInDim: the operands shape-cast to their own shapes, the row broadcast over
    the rows and a maximum with a splat of the scalar word 0; and the row broadcast along the axes [0, 1] with a maximum
    against a rank-0 constant 0 broadcast along no axis, are both biasRelu.
  * reluDense_of_matmul / reluDense_of_dotGeneral: the two together.
  * dense_rows, biasRelu_rows, reluDense_rows: a row of the result depends on x only through the same row, so a block of
    rows of x gives that block of rows of the result (for kernels that tile the rows over a grid).
  * dense_block, biasRelu_block, reluDense_block: the same with the two positions given as indices.
  * row_reshape_eq_broadcast: a [K] vector reshaped to a [1, K] row is the vector broadcast along axis 1.
  Over the library and the plain-product, row-broadcast and small-shape lemmas only; every extent is a variable.
-/
import Idealize.ShloMosaic.PureOps.Ideal.Laws
import Idealize.ShloMosaic.Lib.ValueIdx
import Idealize.ShloMosaic.Lib.Pipeline.Value
import proofs.«148177_j86217173500330_2_alg».proof.Proof.LibPlainDot
import proofs.«148177_j86217173500330_2_alg».proof.Proof.LibDenseStage
import proofs.«148177_j86217173500330_2_alg».proof.Proof.LibHostBroadcast
import proofs.«148177_j86217173500330_2_alg».proof.Proof.LibColSum

noncomputable section

namespace Cert.LibReluDense

open Idealize.ShloMosaic Idealize.ShloMosaic.ValueIdx

variable (M K N : Nat)

/-! ## The plain product -/

/-- The product of an M×K array with a K×N array. -/
def dense (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem dense_apply (x : FVec Ideal ⟨2, ![M, K]⟩ .f32) (w : FVec Ideal ⟨2, ![K, N]⟩ .f32) (a : Fin M) (c : Fin N) :
    dense M K N x w (ix2 a c) = ∑ k : Fin K, x (ix2 a k) * w (ix2 k c) := rfl

/-- Row a' of a block's product is row a of the whole's, when the block's row a' is the whole's row a. -/
theorem dense_rows (M' : Nat) (X : FVec Ideal ⟨2, ![M, K]⟩ .f32) (x : FVec Ideal ⟨2, ![M', K]⟩ .f32)
    (w : FVec Ideal ⟨2, ![K, N]⟩ .f32) (a : Fin M) (a' : Fin M') (h : ∀ k : Fin K, x (ix2 a' k) = X (ix2 a k)) (c : Fin N) :
    dense M' K N x w (ix2 a' c) = dense M K N X w (ix2 a c) := by
  rw [dense_apply, dense_apply]
  exact Finset.sum_congr rfl fun k _ => by rw [h k]

/-- The matrix unit's spelling of the product. -/
theorem dense_of_matmul (x : FVec Ideal ⟨2, ![M, K]⟩ .f32) (w : FVec Ideal ⟨2, ![K, N]⟩ .f32)
    (h1 : FTy.bf16.bits < FTy.f32.bits) (h2 : FTy.bf16.bits < FTy.f32.bits)
    (hw : (⟨2, ![K, N]⟩ : Shape).ShapeCasts ⟨2, ![K, N]⟩) :
    matmul (F := Ideal) (DotDims.plain M K N) none (truncf .bf16 x h1) (truncf .bf16 (shapeCast ⟨2, ![K, N]⟩ w hw) h2)
        (constant ⟨2, ![M, N]⟩ .f32 0x00000000#32)
      = dense M K N x w := by
  funext i
  obtain ⟨a, c, rfl⟩ : ∃ (a : Fin M) (c : Fin N), i = ix2 a c := ⟨i 0, i 1, eq_ix2 i⟩
  rw [Cert.LibPlainDot.matmul_plain, shapeCast_self]
  rfl

/-- The host's spelling of the product. -/
theorem dense_of_dotGeneral (x : FVec Ideal ⟨2, ![M, K]⟩ .f32) (w : FVec Ideal ⟨2, ![K, N]⟩ .f32) :
    Host.dotGeneral (F := Ideal) (DotDims.plain M K N) none x w = dense M K N x w := by
  funext i
  obtain ⟨a, c, rfl⟩ : ∃ (a : Fin M) (c : Fin N), i = ix2 a c := ⟨i 0, i 1, eq_ix2 i⟩
  rw [Cert.LibPlainDot.dotGeneral_plain]
  rfl

/-! ## The bias row and the positive part -/

/-- x plus the bias row, cut off below at 0. -/
def biasRelu (x : FVec Ideal ⟨2, ![M, K]⟩ .f32) (b : FVec Ideal ⟨2, ![1, K]⟩ .f32) : FVec Ideal ⟨2, ![M, K]⟩ .f32 :=
  fun i => max (x i + b (ix2 (0 : Fin 1) (i 1))) 0

theorem biasRelu_apply (x : FVec Ideal ⟨2, ![M, K]⟩ .f32) (b : FVec Ideal ⟨2, ![1, K]⟩ .f32) (a : Fin M) (k : Fin K) :
    biasRelu M K x b (ix2 a k) = max (x (ix2 a k) + b (ix2 (0 : Fin 1) k)) 0 := rfl

/-- An entry of the stage depends on x only through the same entry. -/
theorem biasRelu_rows (M' : Nat) (X : FVec Ideal ⟨2, ![M, K]⟩ .f32) (x : FVec Ideal ⟨2, ![M', K]⟩ .f32)
    (b : FVec Ideal ⟨2, ![1, K]⟩ .f32) (a : Fin M) (a' : Fin M') (k : Fin K) (h : x (ix2 a' k) = X (ix2 a k)) :
    biasRelu M' K x b (ix2 a' k) = biasRelu M K X b (ix2 a k) := by
  rw [biasRelu_apply, biasRelu_apply, h]

/-- The kernel's spelling: both operands shape-cast to their own shapes, the row broadcast over the rows, a maximum with a
    splat of the scalar word 0. -/
theorem biasRelu_of_broadcastTo (x : FVec Ideal ⟨2, ![M, K]⟩ .f32) (b : FVec Ideal ⟨2, ![1, K]⟩ .f32)
    (hx : (⟨2, ![M, K]⟩ : Shape).ShapeCasts ⟨2, ![M, K]⟩) (hc : (⟨2, ![1, K]⟩ : Shape).ShapeCasts ⟨2, ![1, K]⟩)
    (hb : (⟨2, ![1, K]⟩ : Shape).Broadcasts ⟨2, ![M, K]⟩) :
    maximumf (addf (shapeCast ⟨2, ![M, K]⟩ x hx) (broadcastTo ⟨2, ![M, K]⟩ (shapeCast ⟨2, ![1, K]⟩ b hc) hb))
        (broadcast ⟨2, ![M, K]⟩ (Scalar.ofBits (F := Ideal) .f32 0x00000000#32))
      = biasRelu M K x b := by
  funext i
  obtain ⟨a, k, rfl⟩ : ∃ (a : Fin M) (k : Fin K), i = ix2 a k := ⟨i 0, i 1, eq_ix2 i⟩
  rw [maximumf_apply, addf_apply, broadcast_apply, shapeCast_self, shapeCast_self, Cert.LibDenseStage.row_broadcastTo,
    biasRelu_apply]
  exact congrArg (max _) Ideal.ofBits_zero_f32

/-- The host's spelling: the row broadcast along the axes [0, 1], a maximum with a rank-0 constant 0 broadcast along no axis. -/
theorem biasRelu_of_broadcastInDim (x : FVec Ideal ⟨2, ![M, K]⟩ .f32) (b : FVec Ideal ⟨2, ![1, K]⟩ .f32)
    (hb : (⟨2, ![1, K]⟩ : Shape).BroadcastsInDim ⟨2, ![M, K]⟩ (![0, 1] : Fin 2 → Fin 2))
    (h0 : (⟨0, ![]⟩ : Shape).BroadcastsInDim ⟨2, ![M, K]⟩ (![] : Fin 0 → Fin 2)) :
    maximumf (addf x (broadcastInDim ⟨2, ![M, K]⟩ ![0, 1] hb b))
        (broadcastInDim ⟨2, ![M, K]⟩ ![] h0 (constant (F := Ideal) ⟨0, ![]⟩ .f32 0x00000000#32))
      = biasRelu M K x b := by
  funext i
  obtain ⟨a, k, rfl⟩ : ∃ (a : Fin M) (k : Fin K), i = ix2 a k := ⟨i 0, i 1, eq_ix2 i⟩
  rw [maximumf_apply, addf_apply, Cert.LibDenseStage.row_broadcastInDim, biasRelu_apply,
    broadcastInDim_apply (![] : Fin 0 → Fin 2) h0 _ (ix2 a k) ix0 (fun ax => ax.elim0), constant_apply]
  exact congrArg (max _) Ideal.ofBits_zero_f32

/-! ## The two together -/

/-- The positive part of x plus the bias row, times w. -/
def reluDense (x : FVec Ideal ⟨2, ![M, K]⟩ .f32) (b : FVec Ideal ⟨2, ![1, K]⟩ .f32) (w : FVec Ideal ⟨2, ![K, N]⟩ .f32) :
    FVec Ideal ⟨2, ![M, N]⟩ .f32 :=
  dense M K N (biasRelu M K x b) w

/-- Row a' of a block's result is row a of the whole's, when the block's row a' is the whole's row a. -/
theorem reluDense_rows (M' : Nat) (X : FVec Ideal ⟨2, ![M, K]⟩ .f32) (x : FVec Ideal ⟨2, ![M', K]⟩ .f32)
    (b : FVec Ideal ⟨2, ![1, K]⟩ .f32) (w : FVec Ideal ⟨2, ![K, N]⟩ .f32) (a : Fin M) (a' : Fin M')
    (h : ∀ k : Fin K, x (ix2 a' k) = X (ix2 a k)) (c : Fin N) :
    reluDense M' K N x b w (ix2 a' c) = reluDense M K N X b w (ix2 a c) :=
  dense_rows M K N M' _ _ w a a' (fun k => biasRelu_rows M K M' X x b a a' k (h k)) c

/-- The matrix unit's spelling. -/
theorem reluDense_of_matmul (x : FVec Ideal ⟨2, ![M, K]⟩ .f32) (b : FVec Ideal ⟨2, ![1, K]⟩ .f32) (w : FVec Ideal ⟨2, ![K, N]⟩ .f32)
    (h1 : FTy.bf16.bits < FTy.f32.bits) (h2 : FTy.bf16.bits < FTy.f32.bits)
    (hx : (⟨2, ![M, K]⟩ : Shape).ShapeCasts ⟨2, ![M, K]⟩) (hc : (⟨2, ![1, K]⟩ : Shape).ShapeCasts ⟨2, ![1, K]⟩)
    (hb : (⟨2, ![1, K]⟩ : Shape).Broadcasts ⟨2, ![M, K]⟩) (hw : (⟨2, ![K, N]⟩ : Shape).ShapeCasts ⟨2, ![K, N]⟩) :
    matmul (F := Ideal) (DotDims.plain M K N) none
        (truncf .bf16 (maximumf (addf (shapeCast ⟨2, ![M, K]⟩ x hx) (broadcastTo ⟨2, ![M, K]⟩ (shapeCast ⟨2, ![1, K]⟩ b hc) hb))
          (broadcast ⟨2, ![M, K]⟩ (Scalar.ofBits (F := Ideal) .f32 0x00000000#32))) h1)
        (truncf .bf16 (shapeCast ⟨2, ![K, N]⟩ w hw) h2) (constant ⟨2, ![M, N]⟩ .f32 0x00000000#32)
      = reluDense M K N x b w := by
  rw [biasRelu_of_broadcastTo]
  exact dense_of_matmul M K N _ w h1 h2 hw

/-- The host's spelling. -/
theorem reluDense_of_dotGeneral (x : FVec Ideal ⟨2, ![M, K]⟩ .f32) (b : FVec Ideal ⟨2, ![1, K]⟩ .f32) (w : FVec Ideal ⟨2, ![K, N]⟩ .f32)
    (hb : (⟨2, ![1, K]⟩ : Shape).BroadcastsInDim ⟨2, ![M, K]⟩ (![0, 1] : Fin 2 → Fin 2))
    (h0 : (⟨0, ![]⟩ : Shape).BroadcastsInDim ⟨2, ![M, K]⟩ (![] : Fin 0 → Fin 2)) :
    Host.dotGeneral (F := Ideal) (DotDims.plain M K N) none
        (maximumf (addf x (broadcastInDim ⟨2, ![M, K]⟩ ![0, 1] hb b))
          (broadcastInDim ⟨2, ![M, K]⟩ ![] h0 (constant (F := Ideal) ⟨0, ![]⟩ .f32 0x00000000#32))) w
      = reluDense M K N x b w := by
  rw [biasRelu_of_broadcastInDim]
  exact dense_of_dotGeneral M K N _ w

/-! ## A block of rows, at an index

The same three facts with the two positions given as indices: j in a block of M' rows, i in the whole array, in the same
column, the block's row of j being the whole's row of i. -/

theorem dense_block (M' : Nat) (X : FVec Ideal ⟨2, ![M, K]⟩ .f32) (x : FVec Ideal ⟨2, ![M', K]⟩ .f32)
    (w : FVec Ideal ⟨2, ![K, N]⟩ .f32) (i : (⟨2, ![M, N]⟩ : Shape).Idx) (j : (⟨2, ![M', N]⟩ : Shape).Idx)
    (h : ∀ k : Fin K, x (ix2 (j 0) k) = X (ix2 (i 0) k)) (hc : (j 1).val = (i 1).val) :
    dense M' K N x w j = dense M K N X w i := by
  obtain ⟨a', c', rfl⟩ : ∃ (a' : Fin M') (c' : Fin N), j = ix2 a' c' := ⟨j 0, j 1, eq_ix2 j⟩
  obtain ⟨a, c, rfl⟩ : ∃ (a : Fin M) (c : Fin N), i = ix2 a c := ⟨i 0, i 1, eq_ix2 i⟩
  obtain rfl : c' = c := Fin.ext hc
  exact dense_rows M K N M' X x w a a' h c'

theorem biasRelu_block (M' : Nat) (X : FVec Ideal ⟨2, ![M, K]⟩ .f32) (x : FVec Ideal ⟨2, ![M', K]⟩ .f32)
    (b : FVec Ideal ⟨2, ![1, K]⟩ .f32) (i : (⟨2, ![M, K]⟩ : Shape).Idx) (j : (⟨2, ![M', K]⟩ : Shape).Idx)
    (h : x j = X i) (hc : (j 1).val = (i 1).val) :
    biasRelu M' K x b j = biasRelu M K X b i := by
  obtain ⟨a', c', rfl⟩ : ∃ (a' : Fin M') (c' : Fin K), j = ix2 a' c' := ⟨j 0, j 1, eq_ix2 j⟩
  obtain ⟨a, c, rfl⟩ : ∃ (a : Fin M) (c : Fin K), i = ix2 a c := ⟨i 0, i 1, eq_ix2 i⟩
  obtain rfl : c' = c := Fin.ext hc
  exact biasRelu_rows M K M' X x b a a' c' h

theorem reluDense_block (M' : Nat) (X : FVec Ideal ⟨2, ![M, K]⟩ .f32) (x : FVec Ideal ⟨2, ![M', K]⟩ .f32)
    (b : FVec Ideal ⟨2, ![1, K]⟩ .f32) (w : FVec Ideal ⟨2, ![K, N]⟩ .f32) (i : (⟨2, ![M, N]⟩ : Shape).Idx)
    (j : (⟨2, ![M', N]⟩ : Shape).Idx) (h : ∀ k : Fin K, x (ix2 (j 0) k) = X (ix2 (i 0) k)) (hc : (j 1).val = (i 1).val) :
    reluDense M' K N x b w j = reluDense M K N X b w i := by
  obtain ⟨a', c', rfl⟩ : ∃ (a' : Fin M') (c' : Fin N), j = ix2 a' c' := ⟨j 0, j 1, eq_ix2 j⟩
  obtain ⟨a, c, rfl⟩ : ∃ (a : Fin M) (c : Fin N), i = ix2 a c := ⟨i 0, i 1, eq_ix2 i⟩
  obtain rfl : c' = c := Fin.ext hc
  exact reluDense_rows M K N M' X x b w a a' h c'

/-! ## The bias row from a vector -/

/-- A [K] vector reshaped to a [1, K] row is the vector broadcast along axis 1. -/
theorem row_reshape_eq_broadcast {α : Type} (v : (⟨1, ![K]⟩ : Shape).Idx → α) (h : (⟨1, ![K]⟩ : Shape).ShapeCasts ⟨2, ![1, K]⟩)
    (h' : (⟨1, ![K]⟩ : Shape).BroadcastsInDim ⟨2, ![1, K]⟩ (![1] : Fin 1 → Fin 2)) :
    shapeCast ⟨2, ![1, K]⟩ v h = broadcastInDim ⟨2, ![1, K]⟩ ![1] h' v := by
  funext i
  obtain ⟨u, c, rfl⟩ : ∃ (u : Fin 1) (c : Fin K), i = ix2 u c := ⟨i 0, i 1, eq_ix2 i⟩
  obtain rfl : u = 0 := Subsingleton.elim _ _
  rw [Cert.LibColSum.row_of_vec, Cert.LibHostBroadcast.vec_to_row]

end Cert.LibReluDense

end
-- ==== Proof.Stretches.lean ====
/-
  The host operations between the pipelined regions, for any contents of the buffers they start from.
  Each stretch gathers the messages' source rows out of the layer's transformed features, scales each by its normalised
  weight, and scatter-sums them into their target rows; beside that it transposes the next weight and reshapes the next
  bias to a row. These are the reference's own operations, so when the buffers a stretch reads hold the reference's stage
  functions of the arguments, the buffers it writes hold the reference's next stage functions. A stretch writes none of the
  shared graph quantities and no argument.
-/
import proofs.«148177_j86217173500330_2_alg».proof.Proof.Gen.KernelIdeal.Frame
import proofs.«148177_j86217173500330_2_alg».proof.Proof.Gen.ReferenceIdeal.Read
import proofs.«148177_j86217173500330_2_alg».proof.Proof.LibReluDense

set_option maxRecDepth 16384

noncomputable section

namespace Cert.KernelIdeal.Stretches

open Cert.KernelIdeal Cert.KernelIdeal.Gen Idealize.ShloMosaic Idealize.ShloMosaic.TcCoe Idealize.SL.Sem
open Idealize.ShloMosaic.StableHlo
open Cert.ReferenceIdeal.Read

variable (Wv : Valuation τ sig (Elt Ideal))

/-! ## The shared quantities and the later arguments, at a segment boundary -/

/-- The boundary's contents hold the messages' source and target nodes, their normalised weights as a column, and the
    arguments the later segments read. -/
structure Shared (x1 : (⟨S2x800000, .i32⟩ : BufTy).Contents (Elt Ideal)) (x2 : (⟨S800000, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S64x128, .f32⟩ : BufTy).Contents (Elt Ideal)) (x8 : (⟨S64, .f32⟩ : BufTy).Contents (Elt Ideal)) : Prop where
  row : Wv (Proc.devRef .tc main_v3) = val_main_v3 (F := Ideal) x1
  col : Wv (Proc.devRef .tc main_v6) = val_main_v6 (F := Ideal) x1
  norm : Wv (Proc.devRef .tc main_v35) = val_main_v44 (F := Ideal) x1 x2
  a4 : Wv (Proc.devRef .tc main_arg4) = x4
  a5 : Wv (Proc.devRef .tc main_arg5) = x5
  a6 : Wv (Proc.devRef .tc main_arg6) = x6
  a7 : Wv (Proc.devRef .tc main_arg7) = x7
  a8 : Wv (Proc.devRef .tc main_arg8) = x8

/-- Contents that agree on those eight buffers share the property. -/
theorem Shared.of_same {Wv Wv' : Valuation τ sig (Elt Ideal)} {x1 x2 x4 x5 x6 x7 x8} (h : Shared Wv x1 x2 x4 x5 x6 x7 x8)
    (e3 : Wv' (Proc.devRef .tc main_v3) = Wv (Proc.devRef .tc main_v3)) (e6 : Wv' (Proc.devRef .tc main_v6) = Wv (Proc.devRef .tc main_v6))
    (e35 : Wv' (Proc.devRef .tc main_v35) = Wv (Proc.devRef .tc main_v35))
    (e4 : Wv' (Proc.devRef .tc main_arg4) = Wv (Proc.devRef .tc main_arg4)) (e5 : Wv' (Proc.devRef .tc main_arg5) = Wv (Proc.devRef .tc main_arg5))
    (e6' : Wv' (Proc.devRef .tc main_arg6) = Wv (Proc.devRef .tc main_arg6)) (e7 : Wv' (Proc.devRef .tc main_arg7) = Wv (Proc.devRef .tc main_arg7))
    (e8 : Wv' (Proc.devRef .tc main_arg8) = Wv (Proc.devRef .tc main_arg8)) : Shared Wv' x1 x2 x4 x5 x6 x7 x8 :=
  ⟨e3.trans h.row, e6.trans h.col, e35.trans h.norm, e4.trans h.a4, e5.trans h.a5, e6'.trans h.a6, e7.trans h.a7, e8.trans h.a8⟩

/-! ## The stretch after region 0 -/

/-- The first aggregate. -/
theorem agg1 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal))
    (h3 : Wv (Proc.devRef .tc main_v3) = val_main_v3 (F := Ideal) x1) (h6 : Wv (Proc.devRef .tc main_v6) = val_main_v6 (F := Ideal) x1)
    (h35 : Wv (Proc.devRef .tc main_v35) = val_main_v44 (F := Ideal) x1 x2)
    (h37 : Wv (Proc.devRef .tc main_v37) = val_main_v36 (F := Ideal) x0 x3) :
    after hostOps1 Wv (Proc.devRef .tc main_v49) = val_main_v49 (F := Ideal) x0 x1 x2 x3 := by
  dsimp only [hostOps1]
  after_results_simp
  rw [h3, h6, h35, h37]
  rfl

/-- The transposed second weight. -/
theorem weight2 (x5 : (⟨S128x128, .f32⟩ : BufTy).Contents (Elt Ideal)) (h : Wv (Proc.devRef .tc main_arg5) = x5) :
    after hostOps1 Wv (Proc.devRef .tc main_v50) = val_main_v54 (F := Ideal) x5 := by
  dsimp only [hostOps1]
  after_results
  rw [h]
  rfl

/-- The first bias as a row. -/
theorem bias1 (x4 : (⟨S128, .f32⟩ : BufTy).Contents (Elt Ideal)) (h : Wv (Proc.devRef .tc main_arg4) = x4) :
    after hostOps1 Wv (Proc.devRef .tc main_v51) = val_main_v50 (F := Ideal) x4 := by
  dsimp only [hostOps1]
  after_results
  rw [h]
  exact Cert.LibReluDense.row_reshape_eq_broadcast 128 _ _ _

/-- The stretch writes none of the shared buffers. -/
theorem Shared.stretch1 {x1 x2 x4 x5 x6 x7 x8} (h : Shared Wv x1 x2 x4 x5 x6 x7 x8) :
    Shared (after hostOps1 Wv) x1 x2 x4 x5 x6 x7 x8 :=
  h.of_same (by dsimp only [hostOps1]; after_results <;> rfl) (by dsimp only [hostOps1]; after_results <;> rfl)
    (by dsimp only [hostOps1]; after_results <;> rfl) (by dsimp only [hostOps1]; after_results <;> rfl)
    (by dsimp only [hostOps1]; after_results <;> rfl) (by dsimp only [hostOps1]; after_results <;> rfl)
    (by dsimp only [hostOps1]; after_results <;> rfl) (by dsimp only [hostOps1]; after_results <;> rfl)

/-! ## The stretch after region 1 -/

/-- The second aggregate. -/
theorem agg2 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
    (h3 : Wv (Proc.devRef .tc main_v3) = val_main_v3 (F := Ideal) x1) (h6 : Wv (Proc.devRef .tc main_v6) = val_main_v6 (F := Ideal) x1)
    (h35 : Wv (Proc.devRef .tc main_v35) = val_main_v44 (F := Ideal) x1 x2)
    (h52 : Wv (Proc.devRef .tc main_v52) = val_main_v55 (F := Ideal) x0 x1 x2 x3 x4 x5) :
    after hostOps2 Wv (Proc.devRef .tc main_v64) = val_main_v68 (F := Ideal) x0 x1 x2 x3 x4 x5 := by
  dsimp only [hostOps2]
  after_results_simp
  rw [h3, h6, h35, h52]
  rfl

/-- The transposed third weight. -/
theorem weight3 (x7 : (⟨S64x128, .f32⟩ : BufTy).Contents (Elt Ideal)) (h : Wv (Proc.devRef .tc main_arg7) = x7) :
    after hostOps2 Wv (Proc.devRef .tc main_v65) = val_main_v73 (F := Ideal) x7 := by
  dsimp only [hostOps2]
  after_results
  rw [h]
  rfl

/-- The second bias as a row. -/
theorem bias2 (x6 : (⟨S128, .f32⟩ : BufTy).Contents (Elt Ideal)) (h : Wv (Proc.devRef .tc main_arg6) = x6) :
    after hostOps2 Wv (Proc.devRef .tc main_v66) = val_main_v69 (F := Ideal) x6 := by
  dsimp only [hostOps2]
  after_results
  rw [h]
  exact Cert.LibReluDense.row_reshape_eq_broadcast 128 _ _ _

/-- The stretch writes none of the shared buffers. -/
theorem Shared.stretch2 {x1 x2 x4 x5 x6 x7 x8} (h : Shared Wv x1 x2 x4 x5 x6 x7 x8) :
    Shared (after hostOps2 Wv) x1 x2 x4 x5 x6 x7 x8 :=
  h.of_same (by dsimp only [hostOps2]; after_results <;> rfl) (by dsimp only [hostOps2]; after_results <;> rfl)
    (by dsimp only [hostOps2]; after_results <;> rfl) (by dsimp only [hostOps2]; after_results <;> rfl)
    (by dsimp only [hostOps2]; after_results <;> rfl) (by dsimp only [hostOps2]; after_results <;> rfl)
    (by dsimp only [hostOps2]; after_results <;> rfl) (by dsimp only [hostOps2]; after_results <;> rfl)

/-! ## The stretch after region 2 -/

/-- The third aggregate. -/
theorem agg3 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S64x128, .f32⟩ : BufTy).Contents (Elt Ideal))
    (h3 : Wv (Proc.devRef .tc main_v3) = val_main_v3 (F := Ideal) x1) (h6 : Wv (Proc.devRef .tc main_v6) = val_main_v6 (F := Ideal) x1)
    (h35 : Wv (Proc.devRef .tc main_v35) = val_main_v44 (F := Ideal) x1 x2)
    (h67 : Wv (Proc.devRef .tc main_v67) = val_main_v74 (F := Ideal) x0 x1 x2 x3 x4 x5 x6 x7) :
    after hostOps3 Wv (Proc.devRef .tc main_v79) = val_main_v87 (F := Ideal) x0 x1 x2 x3 x4 x5 x6 x7 := by
  dsimp only [hostOps3]
  after_results_simp
  rw [h3, h6, h35, h67]
  rfl

/-- The third bias as a row. -/
theorem bias3 (x8 : (⟨S64, .f32⟩ : BufTy).Contents (Elt Ideal)) (h : Wv (Proc.devRef .tc main_arg8) = x8) :
    after hostOps3 Wv (Proc.devRef .tc main_v80) = val_main_v88 (F := Ideal) x8 := by
  dsimp only [hostOps3]
  after_results
  rw [h]
  exact Cert.LibReluDense.row_reshape_eq_broadcast 64 _ _ _

/-! ## The stretch after region 3 -/

/-- The result: the last region's array as one vector. -/
theorem flat (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S64x128, .f32⟩ : BufTy).Contents (Elt Ideal)) (x8 : (⟨S64, .f32⟩ : BufTy).Contents (Elt Ideal))
    (h81 : Wv (Proc.devRef .tc main_v81) = val_main_v91 (F := Ideal) x0 x1 x2 x3 x4 x5 x6 x7 x8) :
    after hostOps4 Wv (Proc.devRef .tc main_v82) = val_main_v92 (F := Ideal) x0 x1 x2 x3 x4 x5 x6 x7 x8 := by
  dsimp only [hostOps4]
  after_results
  rw [h81]
  rfl

end Cert.KernelIdeal.Stretches

end
-- ==== Proof.Region0.lean ====
/-
  Region 0: the first layer's feature transform.
  The grid has ten points; point t stages rows 5000·t … 5000·t + 4999 of the node features (all 128 columns) and the whole
  128×128 transposed weight, and writes back the product of the two as rows 5000·t … of the result. A row of a product
  depends on the left factor only through the same row, so what point t writes is block t of the product of the WHOLE
  feature array with the weight; the ten blocks tile the 50000 rows, so the result array ends as that product.
-/
import proofs.«148177_j86217173500330_2_alg».proof.Proof.Gen.KernelIdeal.Frame
import Idealize.ShloMosaic.Lib.Pipeline.Value
import proofs.«148177_j86217173500330_2_alg».proof.Proof.LibReluDense

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.LibReluDense

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S5000x128 .f32) (x1 : Vec Ideal S128x128 .f32) :
    k0_pay1 x0 x1 = dense 5000 128 128 x0 x1 := by
  unfold k0_pay1
  exact dense_of_matmul 5000 128 128 x0 x1 _ _ _

/-- The printed index maps over the grid: the feature and result windows move down one block of rows per point, the
    weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weight window's block is the whole weight array. -/
theorem weight_block (c : Dev nD) (t : Fin cfg0.N) : iblk0 V c 1 t = V c main_v36 := by
  obtain ⟨e0, e1, e2, e3, e4, e5⟩ := idx_facts t
  funext y
  show V c main_v36 (((cfg0.win 1).blk t).view.emb y) = V c main_v36 y
  refine congrArg (V c main_v36) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- A row of the feature window's block is the row of the feature array the result's block has at the same place. -/
theorem feature_row (c : Dev nD) (t : Fin cfg0.N) (j : S5000x128.Idx) (k : Fin 128) :
    iblk0 V c 0 t (ix2 (j 0) k) = V c main_arg0 (ix2 ((((cfg0.win 2).blk t).view.emb j) 0) k) := by
  obtain ⟨e0, e1, e2, e3, e4, e5⟩ := idx_facts t
  show V c main_arg0 (((cfg0.win 0).blk t).view.emb (ix2 (j 0) k)) = _
  refine congrArg (V c main_arg0) (funext fun a => Fin.ext ?_)
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 128 + 1 * k.val = k.val; omega

/-- What point t writes back is block t of the product of the whole feature array with the weight. -/
theorem flushed_eq (c : Dev nD) (t : Fin cfg0.N) :
    (dat0 V c).flushed 2 t
      = ((cfg0.win 2).blk t).view.read (Elt Ideal) (dense 50000 128 128 (V c main_arg0) (V c main_v36)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq, weight_block]
  obtain ⟨e0, e1, e2, e3, e4, e5⟩ := idx_facts t
  funext j
  show dense 5000 128 128 (iblk0 V c 0 t) (V c main_v36) j
    = dense 50000 128 128 (V c main_arg0) (V c main_v36) (((cfg0.win 2).blk t).view.emb j)
  refine dense_block 50000 128 128 5000 _ _ _ _ j (fun k => feature_row V c t j k) ?_
  show (j 1).val = win0_2.index t (1 : Fin 2) * 128 + 1 * (j 1).val
  omega

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v37).slice (win0_2.rect t)).set ↔ _
  rw [View.set_slice_whole, Rect.mem_set_unit]
  exact Iff.rfl

/-- Every index of the result array is in some point's block: row r is in block r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := idx_facts t
  refine ⟨t, flush0_2 t, ?_⟩
  rw [mem_blk]
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the product of the feature array and the weight as the region found them. -/
theorem final (c : Dev nD) :
    (dat0 V c).arrAt 2 cfg0.N = dense 50000 128 128 (V c main_arg0) (V c main_v36) :=
  (dat0 V c).arrAt_eq_of_cover 2 _ (fun t _ => flushed_eq V c t) cover

end Cert.KernelIdeal.Region0

end
-- ==== Proof.Region1.lean ====
/-
  Region 1: the first layer's bias and positive part, fused with the second layer's feature transform.
  The grid has ten points; point t stages rows 5000·t … 5000·t + 4999 of the first aggregate (all 128 columns), the whole
  bias row and the whole 128×128 transposed weight, and writes back, as rows 5000·t … of the result, the positive part of
  (block + bias row) times the weight. A row of that depends on the aggregate only through the same row, so what point t
  writes is block t of the same stage of the WHOLE aggregate; the ten blocks tile the 50000 rows.
-/
import proofs.«148177_j86217173500330_2_alg».proof.Proof.Gen.KernelIdeal.Frame
import Idealize.ShloMosaic.Lib.Pipeline.Value
import proofs.«148177_j86217173500330_2_alg».proof.Proof.LibReluDense

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.LibReluDense

variable (V : (c : Dev nD) → (b : Ref sig .tc) → Buf (Elt Ideal) ((c : Thread nD τ).loc b))

theorem hz : (![0, 0] : Fin 2 → Nat) = fun _ => 0 := funext fun a => by fin_cases a <;> rfl

/-- The body's stored value: the positive part of its first block plus the bias row, times its weight block. -/
theorem pay_eq (x0 : Vec Ideal S5000x128 .f32) (x1 : Vec Ideal S1x128 .f32) (x2 : Vec Ideal S128x128 .f32) :
    k1_pay1 x0 x1 x2 = reluDense 5000 128 128 x0 x1 x2 := by
  unfold k1_pay1
  exact reluDense_of_matmul 5000 128 128 x0 x1 x2 _ _ _ _ _ _

/-- The printed index maps over the grid: the aggregate and result windows move down one block of rows per point, the bias
    and weight windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias window's block is the whole bias row. -/
theorem bias_block (c : Dev nD) (t : Fin cfg1.N) : iblk1 V c 1 t = V c main_v51 := by
  obtain ⟨e0, e1, e2, e3, e4, e5, e6, e7⟩ := idx_facts t
  funext y
  show V c main_v51 (((cfg1.win 1).blk t).view.emb y) = V c main_v51 y
  refine congrArg (V c main_v51) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The weight window's block is the whole weight array. -/
theorem weight_block (c : Dev nD) (t : Fin cfg1.N) : iblk1 V c 2 t = V c main_v50 := by
  obtain ⟨e0, e1, e2, e3, e4, e5, e6, e7⟩ := idx_facts t
  funext y
  show V c main_v50 (((cfg1.win 2).blk t).view.emb y) = V c main_v50 y
  refine congrArg (V c main_v50) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- A row of the aggregate window's block is the row of the aggregate array the result's block has at the same place. -/
theorem aggregate_row (c : Dev nD) (t : Fin cfg1.N) (j : S5000x128.Idx) (k : Fin 128) :
    iblk1 V c 0 t (ix2 (j 0) k) = V c main_v49 (ix2 ((((cfg1.win 3).blk t).view.emb j) 0) k) := by
  obtain ⟨e0, e1, e2, e3, e4, e5, e6, e7⟩ := idx_facts t
  show V c main_v49 (((cfg1.win 0).blk t).view.emb (ix2 (j 0) k)) = _
  refine congrArg (V c main_v49) (funext fun a => Fin.ext ?_)
  match a with
  | ⟨0, _⟩ => show win1_0.index t (0 : Fin 2) * 5000 + 1 * (j 0).val = win1_3.index t (0 : Fin 2) * 5000 + 1 * (j 0).val; omega
  | ⟨1, _⟩ => show win1_0.index t (1 : Fin 2) * 128 + 1 * k.val = k.val; omega

/-- What point t writes back is block t of the stage of the whole aggregate array. -/
theorem flushed_eq (c : Dev nD) (t : Fin cfg1.N) :
    (dat1 V c).flushed 3 t
      = ((cfg1.win 3).blk t).view.read (Elt Ideal) (reluDense 50000 128 128 (V c main_v49) (V c main_v51) (V c main_v50)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  rw [pay_eq, bias_block, weight_block]
  obtain ⟨e0, e1, e2, e3, e4, e5, e6, e7⟩ := idx_facts t
  funext j
  show reluDense 5000 128 128 (iblk1 V c 0 t) (V c main_v51) (V c main_v50) j
    = reluDense 50000 128 128 (V c main_v49) (V c main_v51) (V c main_v50) (((cfg1.win 3).blk t).view.emb j)
  refine reluDense_block 50000 128 128 5000 _ _ _ _ _ j (fun k => aggregate_row V c t j k) ?_
  show (j 1).val = win1_3.index t (1 : Fin 2) * 128 + 1 * (j 1).val
  omega

/-- An index of the result array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- Every index of the result array is in some point's block: row r is in block r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5, e6, e7⟩ := idx_facts t
  refine ⟨t, flush1_3 t, ?_⟩
  rw [mem_blk]
  have ht : t.val = (i 0).val / 5000 := rfl
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region: the stage of the aggregate array, the bias row and the weight as the region found them. -/
theorem final (c : Dev nD) :
    (dat1 V c).arrAt 3 cfg1.N = reluDense 50000 128 128 (V c main_v49) (V c main_v51) (V c main_v50) :=
  (dat1 V c).arrAt_eq_of_cover 3 _ (fun t _ => flushed_eq V c t) cover

end Cert.KernelIdeal.Region1

end
-- ==== Proof.Region2.lean ====
/-
  Region 2: the second layer's bias and positive part, fused with the third layer's feature transform.
  The grid has ten points; point t stages rows 5000·t … 5000·t + 4999 of the second aggregate (all 128 columns), the whole
  bias row and the whole 128×64 transposed weight, and writes back, as rows 5000·t … of the 64-column result, the positive
  part of (block + bias row) times the weight. A row of that depends on the aggregate only through the same row, so what
  point t writes is block t of the same stage of the WHOLE aggregate; the ten blocks tile the 50000 rows.
-/
import proofs.«148177_j86217173500330_2_alg».proof.Proof.Gen.KernelIdeal.Frame
import Idealize.ShloMosaic.Lib.Pipeline.Value
import proofs.«148177_j86217173500330_2_alg».proof.Proof.LibReluDense

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.LibReluDense

variable (V : (c : Dev nD) → (b : Ref sig .tc) → Buf (Elt Ideal) ((c : Thread nD τ).loc b))

theorem hz : (![0, 0] : Fin 2 → Nat) = fun _ => 0 := funext fun a => by fin_cases a <;> rfl

/-- The body's stored value: the positive part of its first block plus the bias row, times its weight block. -/
theorem pay_eq (x0 : Vec Ideal S5000x128 .f32) (x1 : Vec Ideal S1x128 .f32) (x2 : Vec Ideal S128x64 .f32) :
    k2_pay1 x0 x1 x2 = reluDense 5000 128 64 x0 x1 x2 := by
  unfold k2_pay1
  exact reluDense_of_matmul 5000 128 64 x0 x1 x2 _ _ _ _ _ _

/-- The printed index maps over the grid: the aggregate and result windows move down one block of rows per point, the bias
    and weight windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The bias window's block is the whole bias row. -/
theorem bias_block (c : Dev nD) (t : Fin cfg2.N) : iblk2 V c 1 t = V c main_v66 := by
  obtain ⟨e0, e1, e2, e3, e4, e5, e6, e7⟩ := idx_facts t
  funext y
  show V c main_v66 (((cfg2.win 1).blk t).view.emb y) = V c main_v66 y
  refine congrArg (V c main_v66) (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The weight window's block is the whole weight array. -/
theorem weight_block (c : Dev nD) (t : Fin cfg2.N) : iblk2 V c 2 t = V c main_v65 := by
  obtain ⟨e0, e1, e2, e3, e4, e5, e6, e7⟩ := idx_facts t
  funext y
  show V c main_v65 (((cfg2.win 2).blk t).view.emb y) = V c main_v65 y
  refine congrArg (V c main_v65) (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- A row of the aggregate window's block is the row of the aggregate array the result's block has at the same place. -/
theorem aggregate_row (c : Dev nD) (t : Fin cfg2.N) (j : S5000x64.Idx) (k : Fin 128) :
    iblk2 V c 0 t (ix2 (j 0) k) = V c main_v64 (ix2 ((((cfg2.win 3).blk t).view.emb j) 0) k) := by
  obtain ⟨e0, e1, e2, e3, e4, e5, e6, e7⟩ := idx_facts t
  show V c main_v64 (((cfg2.win 0).blk t).view.emb (ix2 (j 0) k)) = _
  refine congrArg (V c main_v64) (funext fun a => Fin.ext ?_)
  match a with
  | ⟨0, _⟩ => show win2_0.index t (0 : Fin 2) * 5000 + 1 * (j 0).val = win2_3.index t (0 : Fin 2) * 5000 + 1 * (j 0).val; omega
  | ⟨1, _⟩ => show win2_0.index t (1 : Fin 2) * 128 + 1 * k.val = k.val; omega

/-- What point t writes back is block t of the stage of the whole aggregate array. -/
theorem flushed_eq (c : Dev nD) (t : Fin cfg2.N) :
    (dat2 V c).flushed 3 t
      = ((cfg2.win 3).blk t).view.read (Elt Ideal) (reluDense 50000 128 64 (V c main_v64) (V c main_v66) (V c main_v65)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x64) hz]
  rw [pay_eq, bias_block, weight_block]
  obtain ⟨e0, e1, e2, e3, e4, e5, e6, e7⟩ := idx_facts t
  funext j
  show reluDense 5000 128 64 (iblk2 V c 0 t) (V c main_v66) (V c main_v65) j
    = reluDense 50000 128 64 (V c main_v64) (V c main_v66) (V c main_v65) (((cfg2.win 3).blk t).view.emb j)
  refine reluDense_block 50000 128 64 5000 _ _ _ _ _ j (fun k => aggregate_row V c t j k) ?_
  show (j 1).val = win2_3.index t (1 : Fin 2) * 64 + 1 * (j 1).val
  omega

/-- An index of the result array is in point t's block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v67).slice (win2_3.rect t)).set ↔ _
  rw [View.set_slice_whole, Rect.mem_set_unit]
  exact Iff.rfl

/-- Every index of the result array is in some point's block: row r is in block r / 5000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5, e6, e7⟩ := idx_facts t
  refine ⟨t, flush2_3 t, ?_⟩
  rw [mem_blk]
  have ht : t.val = (i 0).val / 5000 := rfl
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The result array after the region: the stage of the aggregate array, the bias row and the weight as the region found them. -/
theorem final (c : Dev nD) :
    (dat2 V c).arrAt 3 cfg2.N = reluDense 50000 128 64 (V c main_v64) (V c main_v66) (V c main_v65) :=
  (dat2 V c).arrAt_eq_of_cover 3 _ (fun t _ => flushed_eq V c t) cover

end Cert.KernelIdeal.Region2

end
-- ==== Proof.Region3.lean ====
/-
  Region 3: the last layer's bias and positive part.
  The grid has ten points; point t stages rows 5000·t … 5000·t + 4999 of the third aggregate (all 64 columns) and the whole
  bias row, and writes back the positive part of (block + bias row) as rows 5000·t … of the result. An entry of that
  depends on the aggregate only through the same entry, so what point t writes is block t of the same stage of the WHOLE
  aggregate; the ten blocks tile the 50000 rows.
-/
import proofs.«148177_j86217173500330_2_alg».proof.Proof.Gen.KernelIdeal.Frame
import Idealize.ShloMosaic.Lib.Pipeline.Value
import proofs.«148177_j86217173500330_2_alg».proof.Proof.LibReluDense

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.LibReluDense

variable (V : (c : Dev nD) → (b : Ref sig .tc) → Buf (Elt Ideal) ((c : Thread nD τ).loc b))

theorem hz : (![0, 0] : Fin 2 → Nat) = fun _ => 0 := funext fun a => by fin_cases a <;> rfl

/-- The body's stored value: the positive part of its first block plus the bias row. -/
theorem pay_eq (x0 : Vec Ideal S5000x64 .f32) (x1 : Vec Ideal S1x64 .f32) :
    k3_pay1 x0 x1 = biasRelu 5000 64 x0 x1 := by
  unfold k3_pay1
  exact biasRelu_of_broadcastTo 5000 64 x0 x1 _ _ _

/-- The printed index maps over the grid: the aggregate and result windows move down one block of rows per point, the bias
    window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The bias window's block is the whole bias row. -/
theorem bias_block (c : Dev nD) (t : Fin cfg3.N) : iblk3 V c 1 t = V c main_v80 := by
  obtain ⟨e0, e1, e2, e3, e4, e5⟩ := idx_facts t
  funext y
  show V c main_v80 (((cfg3.win 1).blk t).view.emb y) = V c main_v80 y
  refine congrArg (V c main_v80) (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- An entry of the aggregate window's block is the entry of the aggregate array the result's block has at the same place. -/
theorem aggregate_entry (c : Dev nD) (t : Fin cfg3.N) (j : S5000x64.Idx) :
    iblk3 V c 0 t j = V c main_v79 (((cfg3.win 2).blk t).view.emb j) := by
  obtain ⟨e0, e1, e2, e3, e4, e5⟩ := idx_facts t
  show V c main_v79 (((cfg3.win 0).blk t).view.emb j) = _
  refine congrArg (V c main_v79) (funext fun a => Fin.ext ?_)
  match a with
  | ⟨0, _⟩ => show win3_0.index t (0 : Fin 2) * 5000 + 1 * (j 0).val = win3_2.index t (0 : Fin 2) * 5000 + 1 * (j 0).val; omega
  | ⟨1, _⟩ => show win3_0.index t (1 : Fin 2) * 64 + 1 * (j 1).val = win3_2.index t (1 : Fin 2) * 64 + 1 * (j 1).val; omega

/-- What point t writes back is block t of the stage of the whole aggregate array. -/
theorem flushed_eq (c : Dev nD) (t : Fin cfg3.N) :
    (dat3 V c).flushed 2 t
      = ((cfg3.win 2).blk t).view.read (Elt Ideal) (biasRelu 50000 64 (V c main_v79) (V c main_v80)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  rw [pay_eq, bias_block]
  obtain ⟨e0, e1, e2, e3, e4, e5⟩ := idx_facts t
  funext j
  show biasRelu 5000 64 (iblk3 V c 0 t) (V c main_v80) j
    = biasRelu 50000 64 (V c main_v79) (V c main_v80) (((cfg3.win 2).blk t).view.emb j)
  refine biasRelu_block 50000 64 5000 _ _ _ _ j (aggregate_entry V c t j) ?_
  show (j 1).val = win3_2.index t (1 : Fin 2) * 64 + 1 * (j 1).val
  omega

/-- An index of the result array is in point t's block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v81).slice (win3_2.rect t)).set ↔ _
  rw [View.set_slice_whole, Rect.mem_set_unit]
  exact Iff.rfl

/-- Every index of the result array is in some point's block: row r is in block r / 5000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨e0, e1, e2, e3, e4, e5⟩ := idx_facts t
  refine ⟨t, flush3_2 t, ?_⟩
  rw [mem_blk]
  have ht : t.val = (i 0).val / 5000 := rfl
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The result array after the region: the stage of the aggregate array and the bias row as the region found them. -/
theorem final (c : Dev nD) :
    (dat3 V c).arrAt 2 cfg3.N = biasRelu 50000 64 (V c main_v79) (V c main_v80) :=
  (dat3 V c).arrAt_eq_of_cover 2 _ (fun t _ => flushed_eq V c t) cover

end Cert.KernelIdeal.Region3

end
-- ==== Proof.RefStages.lean ====
/-
  The reference's four layer stages as products and positive parts.
  Between the shared graph operations (the edge normalisation, the gathers of messages and their scatter-sums) the
  reference computes, per layer, the product of the layer's input with the transposed weight, and, from the second layer
  on, first adds the bias (a vector made a row, spread over the rows) and takes the positive part. Read with the product
  and positive-part functions of the extended reals these are:
      layer 1:  x · W1ᵀ
      layer 2:  relu(aggregate₁ + b1) · W2ᵀ
      layer 3:  relu(aggregate₂ + b2) · W3ᵀ
      output :  relu(aggregate₃ + b3)
  where each aggregate is the reference's own scatter-sum, left unopened.
-/
import proofs.«148177_j86217173500330_2_alg».proof.Proof.Gen.ReferenceIdeal.Read
import proofs.«148177_j86217173500330_2_alg».proof.Proof.LibReluDense

noncomputable section

namespace Cert.ReferenceIdeal.Stages

open Cert.ReferenceIdeal Cert.ReferenceIdeal.Read Idealize.ShloMosaic Idealize.ShloMosaic.TcCoe
open Cert.LibReluDense

/-- Layer 1: the features times the transposed first weight. -/
theorem layer1 (x0 : (⟨S50000x128, .f32⟩ : BufTy).Contents (Elt Ideal)) (x3 : (⟨S128x128, .f32⟩ : BufTy).Contents (Elt Ideal)) :
    val_main_v36 (F := Ideal) x0 x3 = dense 50000 128 128 x0 (val_main_v35 (F := Ideal) x3) := by
  unfold val_main_v36
  exact dense_of_dotGeneral 50000 128 128 x0 _

/-- Layer 2: the positive part of the first aggregate plus the first bias, times the transposed second weight. -/
theorem layer2 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v55 (F := Ideal) x0 x1 x2 x3 x4 x5
      = reluDense 50000 128 128 (val_main_v49 (F := Ideal) x0 x1 x2 x3) (val_main_v50 (F := Ideal) x4) (val_main_v54 (F := Ideal) x5) := by
  unfold val_main_v55 val_main_v53 val_main_v52 val_main_v51 val_main_call2_v0 val_main_call2_cst
  exact reluDense_of_dotGeneral 50000 128 128 _ _ _ _ _

/-- Layer 3: the positive part of the second aggregate plus the second bias, times the transposed third weight. -/
theorem layer3 (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S64x128, .f32⟩ : BufTy).Contents (Elt Ideal)) :
    val_main_v74 (F := Ideal) x0 x1 x2 x3 x4 x5 x6 x7
      = reluDense 50000 128 64 (val_main_v68 (F := Ideal) x0 x1 x2 x3 x4 x5) (val_main_v69 (F := Ideal) x6) (val_main_v73 (F := Ideal) x7) := by
  unfold val_main_v74 val_main_v72 val_main_v71 val_main_v70 val_main_call3_v0 val_main_call3_cst
  exact reluDense_of_dotGeneral 50000 128 64 _ _ _ _ _

/-- The output: the positive part of the third aggregate plus the third bias. -/
theorem output (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S64x128, .f32⟩ : BufTy).Contents (Elt Ideal)) (x8 : (⟨S64, .f32⟩ : BufTy).Contents (Elt Ideal)) :
    val_main_v91 (F := Ideal) x0 x1 x2 x3 x4 x5 x6 x7 x8
      = biasRelu 50000 64 (val_main_v87 (F := Ideal) x0 x1 x2 x3 x4 x5 x6 x7) (val_main_v88 (F := Ideal) x8) := by
  unfold val_main_v91 val_main_v90 val_main_v89 val_main_call4_v0 val_main_call4_cst
  exact biasRelu_of_broadcastInDim 50000 64 _ _ _ _

end Cert.ReferenceIdeal.Stages

end
-- ==== Proof.Chain.lean ====
/-
  The contents of the kernel's buffers at every segment boundary, as the reference's stage functions of the arguments.
  By induction along the program: region 0 finds the shared graph quantities, the arguments and the transposed first weight;
  each region leaves its result array at the layer's product (or, for the last, the positive part) of what it found; each
  stretch of host operations turns a layer's transformed features into the next aggregate, the next transposed weight and
  the next bias row; regions and stretches alike leave the shared quantities and the arguments alone. At the end the
  result buffer holds the reference's last stage function of the arguments.
-/
import proofs.«148177_j86217173500330_2_alg».proof.Proof.Entry
import proofs.«148177_j86217173500330_2_alg».proof.Proof.Stretches
import proofs.«148177_j86217173500330_2_alg».proof.Proof.Region0
import proofs.«148177_j86217173500330_2_alg».proof.Proof.Region1
import proofs.«148177_j86217173500330_2_alg».proof.Proof.Region2
import proofs.«148177_j86217173500330_2_alg».proof.Proof.Region3
import proofs.«148177_j86217173500330_2_alg».proof.Proof.RefStages

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read Cert.ReferenceIdeal.Stages Cert.KernelIdeal.Stretches

variable (m : (ℓ : Loc nD τ sig) → Buf (Elt Ideal) ℓ) (ρ : Dev nD → PrngReg) (c : Dev nD)

/-! ## Region 0 -/

theorem shared5 : Shared (W5 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  ⟨Entry.row m ρ c, Entry.col m ρ c, Entry.norm m ρ c, Entry.arg4 m ρ c, Entry.arg5 m ρ c, Entry.arg6 m ρ c, Entry.arg7 m ρ c,
    Entry.arg8 m ρ c⟩

theorem shared6 : Shared (W6 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (shared5 m ρ c).of_same (W6_of_ne m ρ c main_v3 (by decide))
    (W6_of_ne m ρ c main_v6 (by decide))
    (W6_of_ne m ρ c main_v35 (by decide))
    (W6_of_ne m ρ c main_arg4 (by decide))
    (W6_of_ne m ρ c main_arg5 (by decide))
    (W6_of_ne m ρ c main_arg6 (by decide))
    (W6_of_ne m ρ c main_arg7 (by decide))
    (W6_of_ne m ρ c main_arg8 (by decide))

/-- The first layer's transformed features. -/
theorem feat1 : W6 m ρ c (Proc.devRef .tc main_v37) = val_main_v36 (F := Ideal) (m ((c : Thread nD τ).loc main_arg0)) (m ((c : Thread nD τ).loc main_arg3)) := by
  refine (W6_arr m ρ c 2).trans ((Region0.final (V5 m ρ) c).trans ?_)
  rw [show V5 m ρ c main_arg0 = (m ((c : Thread nD τ).loc main_arg0)) from Entry.arg0 m ρ c,
    show V5 m ρ c main_v36 = val_main_v35 (F := Ideal) (m ((c : Thread nD τ).loc main_arg3)) from Entry.weight m ρ c]
  exact (layer1 _ _).symm

/-! ## The first stretch and region 1 -/

theorem shared7 : Shared (W7 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := (shared6 m ρ c).stretch1

theorem agg1 : W7 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) :=
  Stretches.agg1 (W6 m ρ c) _ _ _ _ (shared6 m ρ c).row (shared6 m ρ c).col (shared6 m ρ c).norm (feat1 m ρ c)

theorem weight2 : W7 m ρ c (Proc.devRef .tc main_v50) = val_main_v54 (F := Ideal) (m ((c : Thread nD τ).loc main_arg5)) :=
  Stretches.weight2 (W6 m ρ c) _ (shared6 m ρ c).a5

theorem bias1 : W7 m ρ c (Proc.devRef .tc main_v51) = val_main_v50 (F := Ideal) (m ((c : Thread nD τ).loc main_arg4)) :=
  Stretches.bias1 (W6 m ρ c) _ (shared6 m ρ c).a4

theorem shared8 : Shared (W8 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (shared7 m ρ c).of_same (W8_of_ne m ρ c main_v3 (by decide))
    (W8_of_ne m ρ c main_v6 (by decide))
    (W8_of_ne m ρ c main_v35 (by decide))
    (W8_of_ne m ρ c main_arg4 (by decide))
    (W8_of_ne m ρ c main_arg5 (by decide))
    (W8_of_ne m ρ c main_arg6 (by decide))
    (W8_of_ne m ρ c main_arg7 (by decide))
    (W8_of_ne m ρ c main_arg8 (by decide))

/-- The second layer's transformed features. -/
theorem feat2 : W8 m ρ c (Proc.devRef .tc main_v52) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Region1.final (V7 m ρ) c).trans ?_)
  rw [show V7 m ρ c main_v49 = val_main_v49 (F := Ideal) (m ((c : Thread nD τ).loc main_arg0)) (m ((c : Thread nD τ).loc main_arg1)) (m ((c : Thread nD τ).loc main_arg2)) (m ((c : Thread nD τ).loc main_arg3)) from agg1 m ρ c,
    show V7 m ρ c main_v51 = val_main_v50 (F := Ideal) (m ((c : Thread nD τ).loc main_arg4)) from bias1 m ρ c,
    show V7 m ρ c main_v50 = val_main_v54 (F := Ideal) (m ((c : Thread nD τ).loc main_arg5)) from weight2 m ρ c]
  exact (layer2 _ _ _ _ _ _).symm

/-! ## The second stretch and region 2 -/

theorem shared9 : Shared (W9 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := (shared8 m ρ c).stretch2

theorem agg2 : W9 m ρ c (Proc.devRef .tc main_v64) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretches.agg2 (W8 m ρ c) _ _ _ _ _ _ (shared8 m ρ c).row (shared8 m ρ c).col (shared8 m ρ c).norm (feat2 m ρ c)

theorem weight3 : W9 m ρ c (Proc.devRef .tc main_v65) = val_main_v73 (F := Ideal) (m ((c : Thread nD τ).loc main_arg7)) :=
  Stretches.weight3 (W8 m ρ c) _ (shared8 m ρ c).a7

theorem bias2 : W9 m ρ c (Proc.devRef .tc main_v66) = val_main_v69 (F := Ideal) (m ((c : Thread nD τ).loc main_arg6)) :=
  Stretches.bias2 (W8 m ρ c) _ (shared8 m ρ c).a6

theorem shared10 : Shared (W10 m ρ c) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (shared9 m ρ c).of_same (W10_of_ne m ρ c main_v3 (by decide))
    (W10_of_ne m ρ c main_v6 (by decide))
    (W10_of_ne m ρ c main_v35 (by decide))
    (W10_of_ne m ρ c main_arg4 (by decide))
    (W10_of_ne m ρ c main_arg5 (by decide))
    (W10_of_ne m ρ c main_arg6 (by decide))
    (W10_of_ne m ρ c main_arg7 (by decide))
    (W10_of_ne m ρ c main_arg8 (by decide))

/-- The third layer's transformed features. -/
theorem feat3 : W10 m ρ c (Proc.devRef .tc main_v67) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Region2.final (V9 m ρ) c).trans ?_)
  rw [show V9 m ρ c main_v64 = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from agg2 m ρ c,
    show V9 m ρ c main_v66 = val_main_v69 (F := Ideal) (m ((c : Thread nD τ).loc main_arg6)) from bias2 m ρ c,
    show V9 m ρ c main_v65 = val_main_v73 (F := Ideal) (m ((c : Thread nD τ).loc main_arg7)) from weight3 m ρ c]
  exact (layer3 _ _ _ _ _ _ _ _).symm

/-! ## The third stretch, region 3 and the last reshape -/

theorem agg3 : W11 m ρ c (Proc.devRef .tc main_v79) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stretches.agg3 (W10 m ρ c) _ _ _ _ _ _ _ _ (shared10 m ρ c).row (shared10 m ρ c).col (shared10 m ρ c).norm (feat3 m ρ c)

theorem bias3 : W11 m ρ c (Proc.devRef .tc main_v80) = val_main_v88 (F := Ideal) (m ((c : Thread nD τ).loc main_arg8)) :=
  Stretches.bias3 (W10 m ρ c) _ (shared10 m ρ c).a8

/-- The last layer's output. -/
theorem out : W12 m ρ c (Proc.devRef .tc main_v81) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ((Region3.final (V11 m ρ) c).trans ?_)
  rw [show V11 m ρ c main_v79 = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from agg3 m ρ c,
    show V11 m ρ c main_v80 = val_main_v88 (F := Ideal) (m ((c : Thread nD τ).loc main_arg8)) from bias3 m ρ c]
  exact (output _ _ _ _ _ _ _ _ _).symm

/-- The result buffer at the end of the program: the reference's last stage function of the kernel's arguments. -/
theorem result : W13 m ρ c (Proc.devRef .tc main_v82) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Stretches.flat (W12 m ρ c) _ _ _ _ _ _ _ _ _ (out m ρ c)

end Cert.KernelIdeal.Chain

end
-- ==== Proof.lean ====
/-
  A three-layer graph convolution: the kernel against its reference, on the extended reals.
  Both programs compute, from the edge list and edge weights, the source and target node of every message (each edge, then
  one self loop per node) and its symmetrically normalised weight; then three times: transform the node features by a
  transposed weight, gather each message's source row, scale it by the message's weight, and sum the messages into their
  target rows; add a bias and take the positive part. The result is the last layer's output as one vector.
  The kernel does the graph operations on the host exactly as the reference does, operation for operation. It differs in
  the dense parts, which run as four pipelined regions over ten blocks of 5000 rows: a product whose operands are first
  narrowed to a 16-bit float format (the identity on the extended reals); twice the positive part of (aggregate + bias row)
  fused with the next product; and a last positive part of (aggregate + bias row). A row of each of these depends on the
  aggregate only through the same row, so the ten blocks written back are the blocks of the same function of the whole
  array; and the bias reshaped to a row (the kernel) is the bias broadcast to a row (the reference). Hence at every
  boundary between a region and the host operations the kernel's buffers hold the reference's own stage functions of the
  arguments, and the two results are one function of the arguments. No law of arithmetic beyond reading both spellings at
  an index is used, so the finiteness of the inputs is never opened.
  The word-level and idealized kernels' frames are the generated ones; the reference's frame is its generated run with the
  result dropped; the idealization rewrote nothing.
-/
import proofs.«148177_j86217173500330_2_alg».proof.Defs
import proofs.«148177_j86217173500330_2_alg».proof.Proof.Gen.Kernel
import proofs.«148177_j86217173500330_2_alg».proof.Proof.Gen.Kernel.Skeleton
import proofs.«148177_j86217173500330_2_alg».proof.Proof.Gen.Kernel.Launch
import proofs.«148177_j86217173500330_2_alg».proof.Proof.Gen.Kernel.Points
import proofs.«148177_j86217173500330_2_alg».proof.Proof.Gen.Kernel.Frame
import proofs.«148177_j86217173500330_2_alg».proof.Proof.Gen.KernelIdeal
import proofs.«148177_j86217173500330_2_alg».proof.Proof.Gen.KernelIdeal.Skeleton
import proofs.«148177_j86217173500330_2_alg».proof.Proof.Gen.KernelIdeal.Launch
import proofs.«148177_j86217173500330_2_alg».proof.Proof.Gen.KernelIdeal.Points
import proofs.«148177_j86217173500330_2_alg».proof.Proof.Gen.KernelIdeal.Frame
import proofs.«148177_j86217173500330_2_alg».proof.Proof.Gen.ReferenceIdeal
import proofs.«148177_j86217173500330_2_alg».proof.Proof.Gen.Pre_finite_inputs
import proofs.«148177_j86217173500330_2_alg».proof.Proof.Gen.ReferenceIdeal.Run
import proofs.«148177_j86217173500330_2_alg».proof.Proof.Gen.ReferenceIdeal.Read
import proofs.«148177_j86217173500330_2_alg».proof.Proof.RunResult
import proofs.«148177_j86217173500330_2_alg».proof.Proof.Chain
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the reference's last stage function of the kernel's arguments: the kernel by the chain of its
    segment boundaries, the reference by its run, the arguments agreeing. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v92_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
